-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S8x4096x4096 : Shape := ⟨3, ![8, 4096, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S8x4096x4096 : S_.BroadcastsInDim S8x4096x4096 (![] : Fin 0 → Fin S8x4096x4096.rank)
  reducesTo_S8x4096x4096_S_d0_1_2 : S8x4096x4096.ReducesTo [0, 1, 2] S_

variable [Facts]

def fn {F : FTy → Type} [FloatOps F] (main_arg0 : FVec F S16384x4096 .f32) (main_arg1 : FVec F S8x4096x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S8x4096x4096 .f32 := Host.absf main_arg1
  let main_cst_0 : FVec F S_ .f32 := constant S_ .f32 0x7F800000#32
  let main_v5 : FVec F S8x4096x4096 .f32 := broadcastInDim S8x4096x4096 ![] bcast_S_S8x4096x4096 main_cst_0
  let main_v6 : IVec S8x4096x4096 1 := cmpf .olt main_v4 main_v5
  let main_c_1 : IVec S_ 1 := constantI S_ 1 1#1
  let main_v7 : IVec S_ 1 := (fun x v => Host.reduce IntOp.andi x v reducesTo_S8x4096x4096_S_d0_1_2 h_S_) main_v6 main_c_1
  let main_v8 : IVec S_ 1 := andi main_v3 main_v7
  main_v8
-- ==== Kernel.lean ====
abbrev S16384x4096 : Shape := ⟨2, ![16384, 4096]⟩
abbrev S8x4096x4096 : Shape := ⟨3, ![8, 4096, 4096]⟩
abbrev S8x2048x4096 : Shape := ⟨3, ![8, 2048, 4096]⟩
abbrev S1x1024x256 : Shape := ⟨3, ![1, 1024, 256]⟩
abbrev S1x256x2048 : Shape := ⟨3, ![1, 256, 2048]⟩
abbrev S1x1024x2048 : Shape := ⟨3, ![1, 1024, 2048]⟩
abbrev S1024x256 : Shape := ⟨2, ![1024, 256]⟩
abbrev S256x2048 : Shape := ⟨2, ![256, 2048]⟩
abbrev S1024x2048 : Shape := ⟨2, ![1024, 2048]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S8x4096x4096, .f32⟩
  | .hbm, ⟨2, _⟩ => ⟨S8x2048x4096, .f32⟩
  | .hbm, ⟨3, _⟩ => ⟨S8x2048x4096, .f32⟩
  | .hbm, ⟨4, _⟩ => ⟨S16384x4096, .f32⟩
  | .local _ .vmem, ⟨0, _⟩ => ⟨S1x1024x256, .f32⟩
  | .local _ .vmem, ⟨1, _⟩ => ⟨S1x1024x256, .f32⟩
  | .local _ .vmem, ⟨2, _⟩ => ⟨S1x256x2048, .f32⟩
  | .local _ .vmem, ⟨3, _⟩ => ⟨S1x256x2048, .f32⟩
  | .local _ .vmem, ⟨4, _⟩ => ⟨S1x1024x2048, .f32⟩
  | .local _ .vmem, ⟨5, _⟩ => ⟨S1x1024x2048, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 2, 2, 16], ![false, false, false, false]⟩

def k0_cond1 (i : grid0.Coords) : BitVec 1 :=
  let arg3 : BitVec 32 := BitVec.ofNat 32 (i 3).val
  let c0_i32 : BitVec 32 := 0#32
  let v7 : BitVec 1 := Scalar.cmpi .eq arg3 c0_i32
  let v8 : BitVec 32 := Scalar.extui v7
  let c0_i32_5 : BitVec 32 := 0#32
  let v9 : BitVec 1 := Scalar.cmpi .ne v8 c0_i32_5
  v9

def k0_cond2 (i : grid0.Coords) : BitVec 1 :=
  let arg3 : BitVec 32 := BitVec.ofNat 32 (i 3).val
  let c0_i32_6 : BitVec 32 := 0#32
  let v10 : BitVec 1 := Scalar.cmpi .ne arg3 c0_i32_6
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

class Facts₀ : Prop where
  shapeCasts_S16384x4096_S8x2048x4096 : S16384x4096.ShapeCasts S8x2048x4096
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  shapeCasts_S8x2048x4096_S16384x4096 : S8x2048x4096.ShapeCasts S16384x4096
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S8x2048x4096.size a
  hwx0_0 : ∀ i : grid0.Coords, EltTy.bits .f32 = 32 ∨ (Rect.block (s := S8x2048x4096) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S8x4096x4096.size a
  hwx0_1 : ∀ i : grid0.Coords, EltTy.bits .f32 = 32 ∨ (Rect.block (s := S8x4096x4096) S1x256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2048.size a ≤ S8x2048x4096.size a
  hwx0_2 : ∀ i : grid0.Coords, EltTy.bits .f32 = 32 ∨ (Rect.block (s := S8x2048x4096) S1x1024x2048.size (cc0_transform_2 i) (hinb0_2 i)).WholeWords (EltTy.packing .f32)

variable [Facts₀]

def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_v0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S16384x4096 : Shape := ⟨2, ![16384, 4096]⟩
abbrev S8x4096x4096 : Shape := ⟨3, ![8, 4096, 4096]⟩
abbrev S8x2048x4096 : Shape := ⟨3, ![8, 2048, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S8x4096x4096, .f32⟩
  | .hbm, ⟨2, _⟩ => ⟨S8x2048x4096, .f32⟩
  | .hbm, ⟨3, _⟩ => ⟨S8x2048x4096, .f32⟩
  | .hbm, ⟨4, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S16384x4096_S8x2048x4096 : S16384x4096.ShapeCasts S8x2048x4096
  shapeCasts_S8x2048x4096_S16384x4096 : S8x2048x4096.ShapeCasts S16384x4096
  dot_S8x2048x4096_S8x4096x4096_S8x2048x4096_2_1_1_2_0_0_wf : DotDims.WF S8x2048x4096 S8x4096x4096 S8x2048x4096 [2] [1] [1] [2] [0] [0]

variable [Facts₀]

def dot_S8x2048x4096_S8x4096x4096_S8x2048x4096_2_1_1_2_0_0 : DotDims S8x2048x4096 S8x4096x4096 S8x2048x4096 where
  lhsContracting := [2]
  rhsContracting := [1]
  lhsNonContracting := [1]
  rhsNonContracting := [2]
  lhsBatch := [0]
  rhsBatch := [0]
  wf := dot_S8x2048x4096_S8x4096x4096_S8x2048x4096_2_1_1_2_0_0_wf

class Facts : Prop extends Facts₀ where

variable [Facts]
-- ==== Proof.KBody.lean ====
/-
  The kernel body's two control cases, run once each on whole staging buffers.

  A grid point is (g, mi, ni, k) with k the innermost coordinate. The body loads the x block and
  the w block, forms their product, and then
    * at k = 0 stores the product into the output block (the first branch), and
    * at k ≠ 0 stores (output block + product) (the second branch).
  Exactly one of the two branch conditions holds at every point, so the output window is
  never idle. Each case's run leaves the two input buffers as it found them and the output
  buffer with one whole-block store written.
-/
import proofs.«150463_j25769803776599_2_alg».proof.Proof.Gen.Kernel.Frame
import proofs.«150463_j25769803776599_2_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions over the grid -/

/-- The first branch is taken exactly at the points whose innermost coordinate is 0. -/
theorem cond1_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-- The second branch is taken exactly at the other points. -/
theorem cond2_iff : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- At every grid coordinate one of the two branches stores: the output window is never idle. -/
theorem idle2_false (i : grid0.Coords) : cfg0.idle 2 i = false := by
  show (!(k0_cond1 i == 1#1) && !(k0_cond2 i == 1#1)) = false
  unfold k0_cond1 k0_cond2
  generalize i 3 = k
  revert k
  decide +kernel

/-! ## The staging memrefs at a point -/

abbrev ms0 (t : Fin cfg0.N) : Memref sig .tc .vmem S1x1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x2048 .f32 := win0_2.stage (cfg0.slots t 2)
abbrev hs2 (t : Fin cfg0.N) : (ms2 t).IsWhole := hstage0_2 ((cfg0.slots t 2).cast nbuf0_2)

/-! ## The two runs -/

set_option maxHeartbeats 1000000 in
/-- The reset case (k = 0): from the inputs' buffers at x0, x1 and the output's at anything, the body runs
    and leaves the inputs as they were and the output with its stores written (the pieces are found by the run). -/
noncomputable def runReset (c : Dev nD) (i : grid0.Coords)
    (arg4 : Memref sig .tc .vmem S1x1024x256 .f32) (harg4 : arg4.IsWhole)
    (arg5 : Memref sig .tc .vmem S1x256x2048 .f32) (harg5 : arg5.IsWhole)
    (arg6 : Memref sig .tc .vmem S1x1024x2048 .f32) (harg6 : arg6.IsWhole)
    (hc1 : k0_cond1 i = 1#1) (hc2 : ¬ k0_cond2 i = 1#1)
    (x0 : Vec F S1x1024x256 .f32) (x1 : Vec F S1x256x2048 .f32) :
    { L : List (View.Piece (Elt F) S1x1024x2048 .f32) //
      ∀ (E : Set ℕ) (K : PUnit → sProp 𝕄),
        iprop(owns (c : Thread nD τ) arg4 fullShare x0 ∗ owns (c : Thread nD τ) arg5 fullShare x1
            ∗ (∃ d, owns (c : Thread nD τ) arg6 fullShare d)
            ∗ (iprop(owns (c : Thread nD τ) arg4 fullShare x0 ∗ owns (c : Thread nD τ) arg5 fullShare x1
                ∗ (∃ f, arg6.view.loc (c : Thread nD τ) ↦[arg6.view.set]{fullShare} arg6.view.writes (Elt F) f L)) -∗ K ⟨⟩))
          ⊢ wp frame (wpE (defs₀ (F := F)) Variants.none c none) E (cc0__grouped_matmul_kernel i arg4 harg4 arg5 harg5 arg6 harg6) K } := by
  refine ⟨?_, fun E K => ?run⟩
  case run =>
    simp only [cc0__grouped_matmul_kernel_eq_skeleton]; unfold cc0__grouped_matmul_kernel_skel
    unfold owns
    iintro ⟨⟨%f0, %hf0, H0⟩, ⟨%f1, %hf1, H1⟩, ⟨%d2, %f2, -, H2⟩, Hk⟩
    obtain rfl := harg4.eq_unread hf0; obtain rfl := harg5.eq_unread hf1
    sl_exec (disch := first | exact hc1 | exact hc2)
    sl_step
    iapply Hk
    isplitl [H0]
    · iexists _; isplitr; · ipureintro; exact harg4.read_unread _
      iexact H0
    isplitl [H1]
    · iexists _; isplitr; · ipureintro; exact harg5.read_unread _
      iexact H1
    iexists _; iexact H2

set_option maxHeartbeats 1000000 in
/-- The accumulating case (k ≠ 0): the output's buffer is found at acc, and is read before it is stored. -/
noncomputable def runAcc (c : Dev nD) (i : grid0.Coords)
    (arg4 : Memref sig .tc .vmem S1x1024x256 .f32) (harg4 : arg4.IsWhole)
    (arg5 : Memref sig .tc .vmem S1x256x2048 .f32) (harg5 : arg5.IsWhole)
    (arg6 : Memref sig .tc .vmem S1x1024x2048 .f32) (harg6 : arg6.IsWhole)
    (hc1 : ¬ k0_cond1 i = 1#1) (hc2 : k0_cond2 i = 1#1)
    (x0 : Vec F S1x1024x256 .f32) (x1 : Vec F S1x256x2048 .f32) (acc : Vec F S1x1024x2048 .f32) :
    { L : List (View.Piece (Elt F) S1x1024x2048 .f32) //
      ∀ (E : Set ℕ) (K : PUnit → sProp 𝕄),
        iprop(owns (c : Thread nD τ) arg4 fullShare x0 ∗ owns (c : Thread nD τ) arg5 fullShare x1
            ∗ owns (c : Thread nD τ) arg6 fullShare acc
            ∗ (iprop(owns (c : Thread nD τ) arg4 fullShare x0 ∗ owns (c : Thread nD τ) arg5 fullShare x1
                ∗ (∃ f, arg6.view.loc (c : Thread nD τ) ↦[arg6.view.set]{fullShare} arg6.view.writes (Elt F) f L)) -∗ K ⟨⟩))
          ⊢ wp frame (wpE (defs₀ (F := F)) Variants.none c none) E (cc0__grouped_matmul_kernel i arg4 harg4 arg5 harg5 arg6 harg6) K } := by
  refine ⟨?_, fun E K => ?run⟩
  case run =>
    simp only [cc0__grouped_matmul_kernel_eq_skeleton]; unfold cc0__grouped_matmul_kernel_skel
    unfold owns
    iintro ⟨⟨%f0, %hf0, H0⟩, ⟨%f1, %hf1, H1⟩, ⟨%f2, %hf2, H2⟩, Hk⟩
    obtain rfl := harg4.eq_unread hf0; obtain rfl := harg5.eq_unread hf1; obtain rfl := harg6.eq_unread hf2
    sl_exec (disch := first | exact hc1 | exact hc2)
    sl_step
    iapply Hk
    isplitl [H0]
    · iexists _; isplitr; · ipureintro; exact harg4.read_unread _
      iexact H0
    isplitl [H1]
    · iexists _; isplitr; · ipureintro; exact harg5.read_unread _
      iexact H1
    iexists _; iexact H2

end Cert.Kernel.Body

end
-- ==== Proof.KFrame.lean ====
/-
  The frame of the grouped matmul: every weakly fair execution of @main terminates, faults nowhere and
  leaves the argument arrays as launched.

  The grid is 8 x 2 x 2 x 16 = 512 points, the innermost coordinate k = t mod 16 running over the
  sixteen slices of the contracted axis. The output window's block index does not depend on k, so its
  staging buffer is carried across the sixteen points of a run and written back only at k = 15. What the
  buffer holds after point t is therefore defined by recursion on t: at k = 0 what the reset case leaves,
  at k ≠ 0 what the accumulating case leaves over the contents left at t - 1.
-/
import proofs.«150463_j25769803776599_2_alg».proof.Proof.KBody

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output window, through which its contents are stated (the choice does not matter). -/
abbrev VO2 : View sig .tc .vmem S1x1024x2048 .f32 := (Memref.whole cc0_stg2_0 : Memref sig .tc .vmem S1x1024x2048 .f32).view

/-! ## What each case leaves in the output's buffer -/

/-- The reset case's one store is of the whole block, so its pieces cover it. -/
theorem coverReset (c : Dev nD) (i : grid0.Coords)
    (arg4 : Memref sig .tc .vmem S1x1024x256 .f32) (harg4 : arg4.IsWhole)
    (arg5 : Memref sig .tc .vmem S1x256x2048 .f32) (harg5 : arg5.IsWhole)
    (arg6 : Memref sig .tc .vmem S1x1024x2048 .f32) (harg6 : arg6.IsWhole)
    (hc1 : k0_cond1 i = 1#1) (hc2 : ¬ k0_cond2 i = 1#1)
    (x0 : Vec F S1x1024x256 .f32) (x1 : Vec F S1x256x2048 .f32) (y : S1x1024x2048.Idx) :
    ∃ pc ∈ (runReset c i arg4 harg4 arg5 harg5 arg6 harg6 hc1 hc2 x0 x1).1, y ∈ pc.1.set :=
  View.cover_of_tiledL (runReset c i arg4 harg4 arg5 harg5 arg6 harg6 hc1 hc2 x0 x1).1 S1x1024x2048.size (by sl_kernel_rfl) y

/-- What the reset case leaves in the output's buffer: its pieces read back. -/
def outReset (c : Dev nD) (i : grid0.Coords)
    (arg4 : Memref sig .tc .vmem S1x1024x256 .f32) (harg4 : arg4.IsWhole)
    (arg5 : Memref sig .tc .vmem S1x256x2048 .f32) (harg5 : arg5.IsWhole)
    (arg6 : Memref sig .tc .vmem S1x1024x2048 .f32) (harg6 : arg6.IsWhole)
    (hc1 : k0_cond1 i = 1#1) (hc2 : ¬ k0_cond2 i = 1#1)
    (x0 : Vec F S1x1024x256 .f32) (x1 : Vec F S1x256x2048 .f32) : Vec F S1x1024x2048 .f32 :=
  VO2.read (Elt F) (VO2.writes (Elt F) VO2.junk (runReset c i arg4 harg4 arg5 harg5 arg6 harg6 hc1 hc2 x0 x1).1)

/-- The accumulating case's one store is of the whole block too. -/
theorem coverAcc (c : Dev nD) (i : grid0.Coords)
    (arg4 : Memref sig .tc .vmem S1x1024x256 .f32) (harg4 : arg4.IsWhole)
    (arg5 : Memref sig .tc .vmem S1x256x2048 .f32) (harg5 : arg5.IsWhole)
    (arg6 : Memref sig .tc .vmem S1x1024x2048 .f32) (harg6 : arg6.IsWhole)
    (hc1 : ¬ k0_cond1 i = 1#1) (hc2 : k0_cond2 i = 1#1)
    (x0 : Vec F S1x1024x256 .f32) (x1 : Vec F S1x256x2048 .f32) (acc : Vec F S1x1024x2048 .f32) (y : S1x1024x2048.Idx) :
    ∃ pc ∈ (runAcc c i arg4 harg4 arg5 harg5 arg6 harg6 hc1 hc2 x0 x1 acc).1, y ∈ pc.1.set :=
  View.cover_of_tiledL (runAcc c i arg4 harg4 arg5 harg5 arg6 harg6 hc1 hc2 x0 x1 acc).1 S1x1024x2048.size (by sl_kernel_rfl) y

/-- What the accumulating case leaves in the output's buffer, found at `acc`. -/
def outAcc (c : Dev nD) (i : grid0.Coords)
    (arg4 : Memref sig .tc .vmem S1x1024x256 .f32) (harg4 : arg4.IsWhole)
    (arg5 : Memref sig .tc .vmem S1x256x2048 .f32) (harg5 : arg5.IsWhole)
    (arg6 : Memref sig .tc .vmem S1x1024x2048 .f32) (harg6 : arg6.IsWhole)
    (hc1 : ¬ k0_cond1 i = 1#1) (hc2 : k0_cond2 i = 1#1)
    (x0 : Vec F S1x1024x256 .f32) (x1 : Vec F S1x256x2048 .f32) (acc : Vec F S1x1024x2048 .f32) : Vec F S1x1024x2048 .f32 :=
  VO2.read (Elt F) (VO2.writes (Elt F) VO2.junk (runAcc c i arg4 harg4 arg5 harg5 arg6 harg6 hc1 hc2 x0 x1 acc).1)

/-! ## The accumulation, point by point -/

/-- What the output's staging buffer holds after the body at position `n`. -/
def outsAt (c : Dev nD) : (n : ℕ) → n < cfg0.N → Vec F S1x1024x2048 .f32
  | 0, hn => outReset c (grid0.coords ⟨0, hn⟩) (ms0 ⟨0, hn⟩) (hs0 ⟨0, hn⟩) (ms1 ⟨0, hn⟩) (hs1 ⟨0, hn⟩) (ms2 ⟨0, hn⟩) (hs2 ⟨0, hn⟩)
      ((cond1_iff ⟨0, hn⟩).mpr (Nat.zero_mod _)) (fun h => (cond2_iff ⟨0, hn⟩).mp h (Nat.zero_mod _)) (iblk m c 0 ⟨0, hn⟩) (iblk m c 1 ⟨0, hn⟩)
  | n + 1, hn =>
    if h0 : (n + 1) % 16 = 0 then
      outReset c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        ((cond1_iff ⟨n + 1, hn⟩).mpr h0) (fun h => (cond2_iff ⟨n + 1, hn⟩).mp h h0) (iblk m c 0 ⟨n + 1, hn⟩) (iblk m c 1 ⟨n + 1, hn⟩)
    else
      outAcc c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (fun h => h0 ((cond1_iff ⟨n + 1, hn⟩).mp h)) ((cond2_iff ⟨n + 1, hn⟩).mpr h0) (iblk m c 0 ⟨n + 1, hn⟩) (iblk m c 1 ⟨n + 1, hn⟩)
        (outsAt c n (Nat.lt_of_succ_lt hn))

/-- At a point with k = 0: the reset case's contents. -/
theorem outsAt_reset (c : Dev nD) (t : Fin cfg0.N) (h0 : t.val % 16 = 0) :
    outsAt m c t.val t.isLt = outReset c (grid0.coords t) (ms0 t) (hs0 t) (ms1 t) (hs1 t) (ms2 t) (hs2 t)
      ((cond1_iff t).mpr h0) (fun h => (cond2_iff t).mp h h0) (iblk m c 0 t) (iblk m c 1 t) := by
  obtain ⟨n, hn⟩ := t
  cases n with
  | zero => exact rfl
  | succ n => exact (dif_pos h0).trans rfl

/-- At a point with k ≠ 0: the accumulating case's contents, over what the point before left. -/
theorem outsAt_acc (c : Dev nD) (t : Fin cfg0.N) (h0 : ¬ t.val % 16 = 0) :
    outsAt m c t.val t.isLt = outAcc c (grid0.coords t) (ms0 t) (hs0 t) (ms1 t) (hs1 t) (ms2 t) (hs2 t)
      (fun h => h0 ((cond1_iff t).mp h)) ((cond2_iff t).mpr h0) (iblk m c 0 t) (iblk m c 1 t)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body each input's buffer at its block and the output's at
    the accumulation; the invariant is the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt) := by dsimp only [dats]

/-- Each input's current staging buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- At a point with k ≠ 0 the output's current staging buffer holds what the body left at the point before:
    the point is not the first, and the buffer is written back only after a point with k = 15. -/
theorem before_2_acc (c : Dev nD) (t : Fin cfg0.N) (h0 : ¬ t.val % 16 = 0) (d) :
    (dats m 0 c).before 2 t d = (outsAt m c (t.val - 1) (Nat.lt_of_le_of_lt (Nat.sub_le _ _) t.isLt)) := by
  have hN : t.val < 512 := lt_of_lt_of_eq t.isLt (show cfg0.N = 512 from N_0)
  rw [Dat.before_out_kept _ 2 rfl t (by omega) (Bool.eq_false_iff.mpr fun h => by have := (flush0_2 _).mp h; dsimp only at this; omega)
    idle2_false (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

/-- The body at any point: the inputs' buffers hold their blocks; k = 0 or not decides the case; at k ≠ 0 the
    output's buffer holds what the point before left; the case's run applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  by_cases h0 : t.val % 16 = 0
  · rw [outsAt_reset m c t h0]
    unfold outReset
    iintro ⟨HΦ, Ho, ⟨%d0, H0⟩, ⟨%d1, H1⟩, ⟨%d2, H2⟩⟩
    iapply ((runReset c (grid0.coords t) _ _ _ _ _ _ ((cond1_iff t).mpr h0) (fun h => (cond2_iff t).mp h h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverReset c _ _ _ _ _ _ _ _ _ _ _)
  · rw [outsAt_acc m c t h0]
    simp only [before_2_acc m c t h0]
    unfold outAcc
    iintro ⟨HΦ, Ho, ⟨%d0, H0⟩, ⟨%d1, H1⟩, ⟨%d2, H2⟩⟩
    iapply ((runAcc c (grid0.coords t) _ _ _ _ _ _ (fun h => h0 ((cond1_iff t).mp h)) ((cond2_iff t).mpr h0) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverAcc c _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  rw [show cfg0.idle 2 (cfg0.grid.coords t) = false from idle2_false _]
  exact sound_body m c t

/-! ## The run and the frame -/

/-- Every weakly fair execution of @main terminates, every array of the pipeline ending at what the library
    computes from the proof data and every other unscoped buffer as the host lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's post. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KIBody.lean ====
/-
  The kernel body's two control cases, run once each on whole staging buffers.

  A grid point is (g, mi, ni, k) with k the innermost coordinate. The body loads the x block and
  the w block, forms their product, and then
    * at k = 0 stores the product into the output block (the first branch), and
    * at k ≠ 0 stores (output block + product) (the second branch).
  Exactly one of the two branch conditions holds at every point, so the output window is
  never idle. Each case's run leaves the two input buffers as it found them and the output
  buffer with one whole-block store written.
-/
import proofs.«150463_j25769803776599_2_alg».proof.Proof.Gen.KernelIdeal.Frame
import proofs.«150463_j25769803776599_2_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions over the grid -/

/-- The first branch is taken exactly at the points whose innermost coordinate is 0. -/
theorem cond1_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-- The second branch is taken exactly at the other points. -/
theorem cond2_iff : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- At every grid coordinate one of the two branches stores: the output window is never idle. -/
theorem idle2_false (i : grid0.Coords) : cfg0.idle 2 i = false := by
  show (!(k0_cond1 i == 1#1) && !(k0_cond2 i == 1#1)) = false
  unfold k0_cond1 k0_cond2
  generalize i 3 = k
  revert k
  decide +kernel

/-! ## The staging memrefs at a point -/

abbrev ms0 (t : Fin cfg0.N) : Memref sig .tc .vmem S1x1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x2048 .f32 := win0_2.stage (cfg0.slots t 2)
abbrev hs2 (t : Fin cfg0.N) : (ms2 t).IsWhole := hstage0_2 ((cfg0.slots t 2).cast nbuf0_2)

/-! ## The two runs -/

set_option maxHeartbeats 1000000 in
/-- The reset case (k = 0): from the inputs' buffers at x0, x1 and the output's at anything, the body runs
    and leaves the inputs as they were and the output with its stores written (the pieces are found by the run). -/
noncomputable def runReset (c : Dev nD) (i : grid0.Coords)
    (arg4 : Memref sig .tc .vmem S1x1024x256 .f32) (harg4 : arg4.IsWhole)
    (arg5 : Memref sig .tc .vmem S1x256x2048 .f32) (harg5 : arg5.IsWhole)
    (arg6 : Memref sig .tc .vmem S1x1024x2048 .f32) (harg6 : arg6.IsWhole)
    (hc1 : k0_cond1 i = 1#1) (hc2 : ¬ k0_cond2 i = 1#1)
    (x0 : Vec F S1x1024x256 .f32) (x1 : Vec F S1x256x2048 .f32) :
    { L : List (View.Piece (Elt F) S1x1024x2048 .f32) //
      ∀ (E : Set ℕ) (K : PUnit → sProp 𝕄),
        iprop(owns (c : Thread nD τ) arg4 fullShare x0 ∗ owns (c : Thread nD τ) arg5 fullShare x1
            ∗ (∃ d, owns (c : Thread nD τ) arg6 fullShare d)
            ∗ (iprop(owns (c : Thread nD τ) arg4 fullShare x0 ∗ owns (c : Thread nD τ) arg5 fullShare x1
                ∗ (∃ f, arg6.view.loc (c : Thread nD τ) ↦[arg6.view.set]{fullShare} arg6.view.writes (Elt F) f L)) -∗ K ⟨⟩))
          ⊢ wp frame (wpE (defs₀ (F := F)) Variants.none c none) E (cc0__grouped_matmul_kernel i arg4 harg4 arg5 harg5 arg6 harg6) K } := by
  refine ⟨?_, fun E K => ?run⟩
  case run =>
    simp only [cc0__grouped_matmul_kernel_eq_skeleton]; unfold cc0__grouped_matmul_kernel_skel
    unfold owns
    iintro ⟨⟨%f0, %hf0, H0⟩, ⟨%f1, %hf1, H1⟩, ⟨%d2, %f2, -, H2⟩, Hk⟩
    obtain rfl := harg4.eq_unread hf0; obtain rfl := harg5.eq_unread hf1
    sl_exec (disch := first | exact hc1 | exact hc2)
    sl_step
    iapply Hk
    isplitl [H0]
    · iexists _; isplitr; · ipureintro; exact harg4.read_unread _
      iexact H0
    isplitl [H1]
    · iexists _; isplitr; · ipureintro; exact harg5.read_unread _
      iexact H1
    iexists _; iexact H2

set_option maxHeartbeats 1000000 in
/-- The accumulating case (k ≠ 0): the output's buffer is found at acc, and is read before it is stored. -/
noncomputable def runAcc (c : Dev nD) (i : grid0.Coords)
    (arg4 : Memref sig .tc .vmem S1x1024x256 .f32) (harg4 : arg4.IsWhole)
    (arg5 : Memref sig .tc .vmem S1x256x2048 .f32) (harg5 : arg5.IsWhole)
    (arg6 : Memref sig .tc .vmem S1x1024x2048 .f32) (harg6 : arg6.IsWhole)
    (hc1 : ¬ k0_cond1 i = 1#1) (hc2 : k0_cond2 i = 1#1)
    (x0 : Vec F S1x1024x256 .f32) (x1 : Vec F S1x256x2048 .f32) (acc : Vec F S1x1024x2048 .f32) :
    { L : List (View.Piece (Elt F) S1x1024x2048 .f32) //
      ∀ (E : Set ℕ) (K : PUnit → sProp 𝕄),
        iprop(owns (c : Thread nD τ) arg4 fullShare x0 ∗ owns (c : Thread nD τ) arg5 fullShare x1
            ∗ owns (c : Thread nD τ) arg6 fullShare acc
            ∗ (iprop(owns (c : Thread nD τ) arg4 fullShare x0 ∗ owns (c : Thread nD τ) arg5 fullShare x1
                ∗ (∃ f, arg6.view.loc (c : Thread nD τ) ↦[arg6.view.set]{fullShare} arg6.view.writes (Elt F) f L)) -∗ K ⟨⟩))
          ⊢ wp frame (wpE (defs₀ (F := F)) Variants.none c none) E (cc0__grouped_matmul_kernel i arg4 harg4 arg5 harg5 arg6 harg6) K } := by
  refine ⟨?_, fun E K => ?run⟩
  case run =>
    simp only [cc0__grouped_matmul_kernel_eq_skeleton]; unfold cc0__grouped_matmul_kernel_skel
    unfold owns
    iintro ⟨⟨%f0, %hf0, H0⟩, ⟨%f1, %hf1, H1⟩, ⟨%f2, %hf2, H2⟩, Hk⟩
    obtain rfl := harg4.eq_unread hf0; obtain rfl := harg5.eq_unread hf1; obtain rfl := harg6.eq_unread hf2
    sl_exec (disch := first | exact hc1 | exact hc2)
    sl_step
    iapply Hk
    isplitl [H0]
    · iexists _; isplitr; · ipureintro; exact harg4.read_unread _
      iexact H0
    isplitl [H1]
    · iexists _; isplitr; · ipureintro; exact harg5.read_unread _
      iexact H1
    iexists _; iexact H2

end Cert.KernelIdeal.Body

end
-- ==== Proof.KIFrame.lean ====
/-
  The frame of the grouped matmul: every weakly fair execution of @main terminates, faults nowhere and
  leaves the argument arrays as launched.

  The grid is 8 x 2 x 2 x 16 = 512 points, the innermost coordinate k = t mod 16 running over the
  sixteen slices of the contracted axis. The output window's block index does not depend on k, so its
  staging buffer is carried across the sixteen points of a run and written back only at k = 15. What the
  buffer holds after point t is therefore defined by recursion on t: at k = 0 what the reset case leaves,
  at k ≠ 0 what the accumulating case leaves over the contents left at t - 1.
-/
import proofs.«150463_j25769803776599_2_alg».proof.Proof.KIBody

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output window, through which its contents are stated (the choice does not matter). -/
abbrev VO2 : View sig .tc .vmem S1x1024x2048 .f32 := (Memref.whole cc0_stg2_0 : Memref sig .tc .vmem S1x1024x2048 .f32).view

/-! ## What each case leaves in the output's buffer -/

/-- The reset case's one store is of the whole block, so its pieces cover it. -/
theorem coverReset (c : Dev nD) (i : grid0.Coords)
    (arg4 : Memref sig .tc .vmem S1x1024x256 .f32) (harg4 : arg4.IsWhole)
    (arg5 : Memref sig .tc .vmem S1x256x2048 .f32) (harg5 : arg5.IsWhole)
    (arg6 : Memref sig .tc .vmem S1x1024x2048 .f32) (harg6 : arg6.IsWhole)
    (hc1 : k0_cond1 i = 1#1) (hc2 : ¬ k0_cond2 i = 1#1)
    (x0 : Vec F S1x1024x256 .f32) (x1 : Vec F S1x256x2048 .f32) (y : S1x1024x2048.Idx) :
    ∃ pc ∈ (runReset c i arg4 harg4 arg5 harg5 arg6 harg6 hc1 hc2 x0 x1).1, y ∈ pc.1.set :=
  View.cover_of_tiledL (runReset c i arg4 harg4 arg5 harg5 arg6 harg6 hc1 hc2 x0 x1).1 S1x1024x2048.size (by sl_kernel_rfl) y

/-- What the reset case leaves in the output's buffer: its pieces read back. -/
def outReset (c : Dev nD) (i : grid0.Coords)
    (arg4 : Memref sig .tc .vmem S1x1024x256 .f32) (harg4 : arg4.IsWhole)
    (arg5 : Memref sig .tc .vmem S1x256x2048 .f32) (harg5 : arg5.IsWhole)
    (arg6 : Memref sig .tc .vmem S1x1024x2048 .f32) (harg6 : arg6.IsWhole)
    (hc1 : k0_cond1 i = 1#1) (hc2 : ¬ k0_cond2 i = 1#1)
    (x0 : Vec F S1x1024x256 .f32) (x1 : Vec F S1x256x2048 .f32) : Vec F S1x1024x2048 .f32 :=
  VO2.read (Elt F) (VO2.writes (Elt F) VO2.junk (runReset c i arg4 harg4 arg5 harg5 arg6 harg6 hc1 hc2 x0 x1).1)

/-- The accumulating case's one store is of the whole block too. -/
theorem coverAcc (c : Dev nD) (i : grid0.Coords)
    (arg4 : Memref sig .tc .vmem S1x1024x256 .f32) (harg4 : arg4.IsWhole)
    (arg5 : Memref sig .tc .vmem S1x256x2048 .f32) (harg5 : arg5.IsWhole)
    (arg6 : Memref sig .tc .vmem S1x1024x2048 .f32) (harg6 : arg6.IsWhole)
    (hc1 : ¬ k0_cond1 i = 1#1) (hc2 : k0_cond2 i = 1#1)
    (x0 : Vec F S1x1024x256 .f32) (x1 : Vec F S1x256x2048 .f32) (acc : Vec F S1x1024x2048 .f32) (y : S1x1024x2048.Idx) :
    ∃ pc ∈ (runAcc c i arg4 harg4 arg5 harg5 arg6 harg6 hc1 hc2 x0 x1 acc).1, y ∈ pc.1.set :=
  View.cover_of_tiledL (runAcc c i arg4 harg4 arg5 harg5 arg6 harg6 hc1 hc2 x0 x1 acc).1 S1x1024x2048.size (by sl_kernel_rfl) y

/-- What the accumulating case leaves in the output's buffer, found at `acc`. -/
def outAcc (c : Dev nD) (i : grid0.Coords)
    (arg4 : Memref sig .tc .vmem S1x1024x256 .f32) (harg4 : arg4.IsWhole)
    (arg5 : Memref sig .tc .vmem S1x256x2048 .f32) (harg5 : arg5.IsWhole)
    (arg6 : Memref sig .tc .vmem S1x1024x2048 .f32) (harg6 : arg6.IsWhole)
    (hc1 : ¬ k0_cond1 i = 1#1) (hc2 : k0_cond2 i = 1#1)
    (x0 : Vec F S1x1024x256 .f32) (x1 : Vec F S1x256x2048 .f32) (acc : Vec F S1x1024x2048 .f32) : Vec F S1x1024x2048 .f32 :=
  VO2.read (Elt F) (VO2.writes (Elt F) VO2.junk (runAcc c i arg4 harg4 arg5 harg5 arg6 harg6 hc1 hc2 x0 x1 acc).1)

/-! ## The accumulation, point by point -/

/-- What the output's staging buffer holds after the body at position `n`. -/
def outsAt (c : Dev nD) : (n : ℕ) → n < cfg0.N → Vec F S1x1024x2048 .f32
  | 0, hn => outReset c (grid0.coords ⟨0, hn⟩) (ms0 ⟨0, hn⟩) (hs0 ⟨0, hn⟩) (ms1 ⟨0, hn⟩) (hs1 ⟨0, hn⟩) (ms2 ⟨0, hn⟩) (hs2 ⟨0, hn⟩)
      ((cond1_iff ⟨0, hn⟩).mpr (Nat.zero_mod _)) (fun h => (cond2_iff ⟨0, hn⟩).mp h (Nat.zero_mod _)) (iblk m c 0 ⟨0, hn⟩) (iblk m c 1 ⟨0, hn⟩)
  | n + 1, hn =>
    if h0 : (n + 1) % 16 = 0 then
      outReset c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        ((cond1_iff ⟨n + 1, hn⟩).mpr h0) (fun h => (cond2_iff ⟨n + 1, hn⟩).mp h h0) (iblk m c 0 ⟨n + 1, hn⟩) (iblk m c 1 ⟨n + 1, hn⟩)
    else
      outAcc c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (fun h => h0 ((cond1_iff ⟨n + 1, hn⟩).mp h)) ((cond2_iff ⟨n + 1, hn⟩).mpr h0) (iblk m c 0 ⟨n + 1, hn⟩) (iblk m c 1 ⟨n + 1, hn⟩)
        (outsAt c n (Nat.lt_of_succ_lt hn))

/-- At a point with k = 0: the reset case's contents. -/
theorem outsAt_reset (c : Dev nD) (t : Fin cfg0.N) (h0 : t.val % 16 = 0) :
    outsAt m c t.val t.isLt = outReset c (grid0.coords t) (ms0 t) (hs0 t) (ms1 t) (hs1 t) (ms2 t) (hs2 t)
      ((cond1_iff t).mpr h0) (fun h => (cond2_iff t).mp h h0) (iblk m c 0 t) (iblk m c 1 t) := by
  obtain ⟨n, hn⟩ := t
  cases n with
  | zero => exact rfl
  | succ n => exact (dif_pos h0).trans rfl

/-- At a point with k ≠ 0: the accumulating case's contents, over what the point before left. -/
theorem outsAt_acc (c : Dev nD) (t : Fin cfg0.N) (h0 : ¬ t.val % 16 = 0) :
    outsAt m c t.val t.isLt = outAcc c (grid0.coords t) (ms0 t) (hs0 t) (ms1 t) (hs1 t) (ms2 t) (hs2 t)
      (fun h => h0 ((cond1_iff t).mp h)) ((cond2_iff t).mpr h0) (iblk m c 0 t) (iblk m c 1 t)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body each input's buffer at its block and the output's at
    the accumulation; the invariant is the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt) := by dsimp only [dats]

/-- Each input's current staging buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- At a point with k ≠ 0 the output's current staging buffer holds what the body left at the point before:
    the point is not the first, and the buffer is written back only after a point with k = 15. -/
theorem before_2_acc (c : Dev nD) (t : Fin cfg0.N) (h0 : ¬ t.val % 16 = 0) (d) :
    (dats m 0 c).before 2 t d = (outsAt m c (t.val - 1) (Nat.lt_of_le_of_lt (Nat.sub_le _ _) t.isLt)) := by
  have hN : t.val < 512 := lt_of_lt_of_eq t.isLt (show cfg0.N = 512 from N_0)
  rw [Dat.before_out_kept _ 2 rfl t (by omega) (Bool.eq_false_iff.mpr fun h => by have := (flush0_2 _).mp h; dsimp only at this; omega)
    idle2_false (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

/-- The body at any point: the inputs' buffers hold their blocks; k = 0 or not decides the case; at k ≠ 0 the
    output's buffer holds what the point before left; the case's run applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  by_cases h0 : t.val % 16 = 0
  · rw [outsAt_reset m c t h0]
    unfold outReset
    iintro ⟨HΦ, Ho, ⟨%d0, H0⟩, ⟨%d1, H1⟩, ⟨%d2, H2⟩⟩
    iapply ((runReset c (grid0.coords t) _ _ _ _ _ _ ((cond1_iff t).mpr h0) (fun h => (cond2_iff t).mp h h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverReset c _ _ _ _ _ _ _ _ _ _ _)
  · rw [outsAt_acc m c t h0]
    simp only [before_2_acc m c t h0]
    unfold outAcc
    iintro ⟨HΦ, Ho, ⟨%d0, H0⟩, ⟨%d1, H1⟩, ⟨%d2, H2⟩⟩
    iapply ((runAcc c (grid0.coords t) _ _ _ _ _ _ (fun h => h0 ((cond1_iff t).mp h)) ((cond2_iff t).mpr h0) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverAcc c _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  rw [show cfg0.idle 2 (cfg0.grid.coords t) = false from idle2_false _]
  exact sound_body m c t

/-! ## The run and the frame -/

/-- Every weakly fair execution of @main terminates, every array of the pipeline ending at what the library
    computes from the proof data and every other unscoped buffer as the host lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's post. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.LibDense.lean ====
/-
  The operations of a dense layer read at one entry, at the ideal values, each stated at an index written by its
  coordinates and generic in the extents:
  a plain matrix product (the kernel's product into the zero splat, whatever the operands' storage formats, and the
  host's dot product) as the sum over the contracted coordinate; a block of rows sliced out of a matrix; two or
  three matrices joined side by side along the columns; a vector laid out as a one-row matrix and that row repeated
  down the rows; a scalar repeated over a whole array; and a finite sum over `Fin r` cut into consecutive blocks.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx

/-! ## Plain matrix products -/

section Products
variable {m k n : ℕ} (w : DotDims.WF ⟨2, ![m, k]⟩ ⟨2, ![k, n]⟩ ⟨2, ![m, n]⟩ [1] [0] [0] [1] [] [])

/-- The left operand's index of a plain product at output entry (a, b) and contracted coordinate c is (a, c). -/
theorem plain_lhsIdx (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's index of a plain product at output entry (a, b) and contracted coordinate c is (c, b). -/
theorem plain_rhsIdx (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- A product of an m×k by a k×n matrix accumulated into the zero splat, whatever formats the operands are stored
    in, read at entry (a, b): the sum over the contracted coordinate. -/
theorem matmul_plain_apply {φ₁ φ₂ : FTy} (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) none A B
        (constant ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

/-- The host's dot product of an m×k by a k×n matrix read at entry (a, b): the same sum. -/
theorem hostDot_plain_apply {φ₁ φ₂ : FTy} (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) none A B (ix2 a b)
      = ∑ c : Fin k, A (ix2 a c) * B (ix2 c b) := by
  show FloatOps.dotGeneral _ none .single A B (ix2 a b) = _
  rw [Ideal.dotGeneral_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

end Products

/-! ## Layout -/

section Layout
variable {α : Type}

/-- Rows o … o + c - 1 of an a×b matrix, read at (i, j): the matrix at (o + i, j). -/
theorem sliceRows_apply {a b c : ℕ} (o : ℕ) (x : (⟨2, ![a, b]⟩ : Shape).Idx → α)
    (h : (⟨2, ![a, b]⟩ : Shape).Slices ![o, 0] ⟨2, ![c, b]⟩) (i : Fin c) (j : Fin b) (ho : o + i.val < a) :
    extractStridedSlice ⟨2, ![c, b]⟩ ![o, 0] x h (ix2 i j) = x (ix2 ⟨o + i.val, ho⟩ j) :=
  extractStridedSlice_apply _ x h _ _ fun ax => match ax with
    | ⟨0, _⟩ => rfl
    | ⟨1, _⟩ => (Nat.zero_add _).symm

/-- Two matrices side by side: a column of the first. -/
theorem concatCols2_left {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin p) (hc : c.val < r) :
    concatenate ⟨2, ![n, r]⟩ 1 [⟨⟨2, ![n, p]⟩, x₁⟩, ⟨⟨2, ![n, q]⟩, x₂⟩] h (ix2 e ⟨c.val, hc⟩) = x₁ (ix2 e c) :=
  concatenate_pair_apply_left 1 x₁ x₂ h _ rfl _ fun b => match b with
    | ⟨0, _⟩ => rfl
    | ⟨1, _⟩ => rfl

/-- Two matrices side by side: a column of the second sits p columns to the right. -/
theorem concatCols2_right {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin q) (hc : p + c.val < r) :
    concatenate ⟨2, ![n, r]⟩ 1 [⟨⟨2, ![n, p]⟩, x₁⟩, ⟨⟨2, ![n, q]⟩, x₂⟩] h (ix2 e ⟨p + c.val, hc⟩) = x₂ (ix2 e c) :=
  concatenate_pair_apply_right 1 x₁ x₂ h _ rfl rfl _
    (fun b hb => match b with
      | ⟨0, _⟩ => rfl
      | ⟨1, _⟩ => absurd rfl hb)
    (Nat.add_comm _ _)

/-- A vector laid out as a one-row matrix. -/
theorem bcastRow_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) :=
  broadcastInDim_apply _ h v _ _ fun ax => match ax with
    | ⟨0, _⟩ => by
      show j.val = if b = 1 then 0 else j.val
      split
      · have := j.isLt; omega
      · rfl

/-- A one-row matrix repeated down the rows. -/
theorem bcastRows_apply {a b : ℕ} (v : (⟨2, ![1, b]⟩ : Shape).Idx → α)
    (h : (⟨2, ![1, b]⟩ : Shape).BroadcastsInDim ⟨2, ![a, b]⟩ ![0, 1]) (p : Fin a) (j : Fin b) :
    broadcastInDim ⟨2, ![a, b]⟩ ![0, 1] h v (ix2 p j) = v (ix2 (0 : Fin 1) j) :=
  broadcastInDim_apply _ h v _ _ fun ax => match ax with
    | ⟨0, _⟩ => rfl
    | ⟨1, _⟩ => by
      show j.val = if b = 1 then 0 else j.val
      split
      · have := j.isLt; omega
      · rfl

/-- A scalar repeated over a whole array. -/
theorem bcastScalar_apply {s : Shape} (v : (⟨0, ![]⟩ : Shape).Idx → α)
    (h : (⟨0, ![]⟩ : Shape).BroadcastsInDim s ![]) (i : s.Idx) :
    broadcastInDim s ![] h v i = v ix0 :=
  broadcastInDim_apply _ h v i ix0 fun ax => ax.elim0

end Layout

/-! ## A finite sum cut into consecutive blocks -/

section Sums
variable {M : Type} [AddCommMonoid M]

/-- A sum over r = p + q indices is the sum over the first p plus the sum over the last q. -/
theorem sum_split2 {p q r : ℕ} (hr : p + q = r) (f : Fin r → M) :
    ∑ c : Fin r, f c
      = ∑ c : Fin p, f ⟨c.val, by have := c.isLt; omega⟩ + ∑ c : Fin q, f ⟨p + c.val, by have := c.isLt; omega⟩ := by
  subst hr
  rw [Fin.sum_univ_add]
  rfl

/-- A sum over r = p + q + s indices in three consecutive blocks. -/
theorem sum_split3 {p q s r : ℕ} (hr : p + q + s = r) (f : Fin r → M) :
    ∑ c : Fin r, f c
      = (∑ c : Fin p, f ⟨c.val, by have := c.isLt; omega⟩ + ∑ c : Fin q, f ⟨p + c.val, by have := c.isLt; omega⟩)
        + ∑ c : Fin s, f ⟨p + q + c.val, by have := c.isLt; omega⟩ := by
  subst hr
  rw [Fin.sum_univ_add, Fin.sum_univ_add]
  rfl

end Sums

end Cert.Dense

end
-- ==== Proof.KIPieces.lean ====
/-
  What the two cases leave, as values, and those values read at one entry.

  The reset case's one store writes the product of the two loaded blocks; the accumulating case's writes the
  output block it found plus that product. At the ideal values the change of storage format before the
  product is the identity and the product into the zero splat is the plain sum over the contracted
  coordinate, so at row r and column cc
      product(x, w)(r, cc) = Σ_j x(0, r, j) · w(0, j, cc),   j over the 256 coordinates of the slice.
-/
import proofs.«150463_j25769803776599_2_alg».proof.Proof.KIFrame
import proofs.«150463_j25769803776599_2_alg».proof.Proof.LibDense
import Idealize.ShloMosaic.Lib.ValueLayout
import Idealize.ShloMosaic.Lib.ValueIdx
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable {F : FTy → Type} [FloatOps F]

theorem hz3 : (![0, 0, 0] : Fin 3 → Nat) = fun _ => 0 := funext fun a => by fin_cases a <;> rfl

/-- The reset case leaves the product of the two input blocks. -/
theorem outReset_eq (c : Dev nD) (i : grid0.Coords)
    (a4 : Memref sig .tc .vmem S1x1024x256 .f32) (h4 : a4.IsWhole)
    (a5 : Memref sig .tc .vmem S1x256x2048 .f32) (h5 : a5.IsWhole)
    (a6 : Memref sig .tc .vmem S1x1024x2048 .f32) (h6 : a6.IsWhole)
    (hc1 : k0_cond1 i = 1#1) (hc2 : ¬ k0_cond2 i = 1#1)
    (x0 : Vec F S1x1024x256 .f32) (x1 : Vec F S1x256x2048 .f32) :
    outReset c i a4 h4 a5 h5 a6 h6 hc1 hc2 x0 x1 = k0_pay2 x0 x1 := by
  unfold outReset
  rw [View.read_writes_eq_canon _ _ _ (coverReset c i a4 h4 a5 h5 a6 h6 hc1 hc2 x0 x1)]
  unfold runReset
  dsimp only
  rw [View.canon_unit_zero hz3]
  simp only [View.readAt_eq_ld, h4.read_unread, h5.read_unread, View.ld_unit_zero (S := S1x1024x256) hz3,
    View.ld_unit_zero (S := S1x256x2048) hz3]

/-- The accumulating case leaves the block it found plus the product of the two input blocks. -/
theorem outAcc_eq (c : Dev nD) (i : grid0.Coords)
    (a4 : Memref sig .tc .vmem S1x1024x256 .f32) (h4 : a4.IsWhole)
    (a5 : Memref sig .tc .vmem S1x256x2048 .f32) (h5 : a5.IsWhole)
    (a6 : Memref sig .tc .vmem S1x1024x2048 .f32) (h6 : a6.IsWhole)
    (hc1 : ¬ k0_cond1 i = 1#1) (hc2 : k0_cond2 i = 1#1)
    (x0 : Vec F S1x1024x256 .f32) (x1 : Vec F S1x256x2048 .f32) (acc : Vec F S1x1024x2048 .f32) :
    outAcc c i a4 h4 a5 h5 a6 h6 hc1 hc2 x0 x1 acc = k0_pay3 x0 x1 acc := by
  unfold outAcc
  rw [View.read_writes_eq_canon _ _ _ (coverAcc c i a4 h4 a5 h5 a6 h6 hc1 hc2 x0 x1 acc)]
  unfold runAcc
  dsimp only
  rw [View.canon_unit_zero hz3]
  simp only [View.readAt_eq_ld, h4.read_unread, h5.read_unread, h6.read_unread, View.ld_unit_zero (S := S1x1024x256) hz3,
    View.ld_unit_zero (S := S1x256x2048) hz3, View.ld_unit_zero (S := S1x1024x2048) hz3]

/-! ## The payloads at an entry, at the ideal values -/

/-- The product of the two blocks at (r, cc): the sum over the slice's 256 coordinates. -/
theorem pay1_apply (x0 : Vec Ideal S1x1024x256 .f32) (x1 : Vec Ideal S1x256x2048 .f32) (r : Fin 1024) (cc : Fin 2048) :
    k0_pay1 (F := Ideal) x0 x1 (ix2 r cc) = ∑ j : Fin 256, x0 (ix3 (0 : Fin 1) r j) * x1 (ix3 (0 : Fin 1) j cc) := by
  unfold k0_pay1
  refine (Cert.Dense.matmul_plain_apply Facts₀.dot_S1024x256_S256x2048_S1024x2048_1_0_0_1_n_n_wf _ _ r cc).trans ?_
  refine Finset.sum_congr rfl fun j _ => ?_
  refine congrArg₂ (· * ·) ?_ ?_
  · exact shapeCast_1ab_ab_apply x0 _ r j
  · exact shapeCast_1ab_ab_apply x1 _ j cc

/-- What the reset case stores, at (0, r, cc). -/
theorem pay2_apply (x0 : Vec Ideal S1x1024x256 .f32) (x1 : Vec Ideal S1x256x2048 .f32) (u : Fin 1) (r : Fin 1024) (cc : Fin 2048) :
    k0_pay2 (F := Ideal) x0 x1 (ix3 u r cc) = ∑ j : Fin 256, x0 (ix3 (0 : Fin 1) r j) * x1 (ix3 (0 : Fin 1) j cc) := by
  unfold k0_pay2
  exact (shapeCast_ab_1ab_apply (k0_pay1 (F := Ideal) x0 x1) _ u r cc).trans (pay1_apply x0 x1 r cc)

/-- What the accumulating case stores, at (0, r, cc). -/
theorem pay3_apply (x0 : Vec Ideal S1x1024x256 .f32) (x1 : Vec Ideal S1x256x2048 .f32) (acc : Vec Ideal S1x1024x2048 .f32)
    (u : Fin 1) (r : Fin 1024) (cc : Fin 2048) :
    k0_pay3 (F := Ideal) x0 x1 acc (ix3 u r cc)
      = acc (ix3 (0 : Fin 1) r cc) + ∑ j : Fin 256, x0 (ix3 (0 : Fin 1) r j) * x1 (ix3 (0 : Fin 1) j cc) := by
  unfold k0_pay3
  refine (shapeCast_ab_1ab_apply _ _ u r cc).trans ?_
  refine (addf_apply _ _ _).trans ?_
  exact congrArg₂ (· + ·) (shapeCast_1ab_ab_apply acc _ r cc) (pay1_apply x0 x1 r cc)

end Cert.KernelIdeal.Body

end
-- ==== Proof.Spec.lean ====
/-
  The grouped matrix product, entry by entry, and its partial sums.

  For x of shape [8, 2048, 4096] and w of shape [8, 4096, 4096] over the extended reals, entry (g, b, o) of the
  grouped product is  Σ_q x(g, b, q) · w(g, q, o),  q over the 4096 contracted coordinates. The kernel reaches it
  through sixteen partial sums, the n-th over the first n coordinates: adding the next 256 terms to the partial
  sum over n gives the partial sum over n + 256, and the partial sum over all 4096 is the entry. Only
  commutativity and associativity of addition are used, so nothing here needs a finite entry.
-/
import Mathlib.Algebra.BigOperators.Fin
import Mathlib.Algebra.BigOperators.Intervals
import Idealize.ShloMosaic.Lib.ValueIdx
import Idealize.ShloMosaic.PureOps.Ideal

noncomputable section

namespace Cert.GroupedProduct

open Idealize.ShloMosaic Idealize.ShloMosaic.ValueIdx

abbrev SX : Shape := ⟨3, ![8, 2048, 4096]⟩
abbrev SW : Shape := ⟨3, ![8, 4096, 4096]⟩

variable (x : SX.Idx → EReal) (w : SW.Idx → EReal)

/-- The q-th term of entry (g, b, o); zero past the contracted extent. -/
def term (g : Fin 8) (b : Fin 2048) (o : Fin 4096) (q : ℕ) : EReal :=
  if h : q < 4096 then x (ix3 g b ⟨q, h⟩) * w (ix3 g ⟨q, h⟩ o) else 0

/-- The sum of the first n terms. -/
def partialSum (g : Fin 8) (b : Fin 2048) (o : Fin 4096) (n : ℕ) : EReal :=
  ∑ q ∈ Finset.range n, term x w g b o q

/-- Entry (g, b, o) of the grouped product. -/
def entry (g : Fin 8) (b : Fin 2048) (o : Fin 4096) : EReal :=
  ∑ q : Fin 4096, x (ix3 g b q) * w (ix3 g q o)

/-- The grouped product as an array. -/
def product : SX.Idx → EReal := fun i => entry x w (i 0) (i 1) (i 2)

theorem term_of_lt (g : Fin 8) (b : Fin 2048) (o : Fin 4096) (q : Fin 4096) :
    term x w g b o q.val = x (ix3 g b q) * w (ix3 g q o) := by
  unfold term
  rw [dif_pos q.isLt]

/-- The partial sum over all 4096 coordinates is the entry. -/
theorem partialSum_full (g : Fin 8) (b : Fin 2048) (o : Fin 4096) :
    partialSum x w g b o 4096 = entry x w g b o := by
  unfold partialSum entry
  rw [Finset.sum_range]
  exact Finset.sum_congr rfl fun q _ => term_of_lt x w g b o q

/-- One more slice of 256 coordinates. -/
theorem partialSum_add (g : Fin 8) (b : Fin 2048) (o : Fin 4096) (n : ℕ) :
    partialSum x w g b o n + ∑ j : Fin 256, term x w g b o (n + j.val) = partialSum x w g b o (n + 256) := by
  unfold partialSum
  rw [Finset.sum_range_add, Finset.sum_range (fun j => term x w g b o (n + j))]

/-- The first slice alone. -/
theorem partialSum_first (g : Fin 8) (b : Fin 2048) (o : Fin 4096) :
    ∑ j : Fin 256, term x w g b o (0 + j.val) = partialSum x w g b o 256 := by
  have h := partialSum_add x w g b o 0
  rw [show partialSum x w g b o 0 = 0 from Finset.sum_range_zero _, zero_add] at h
  exact h

end Cert.GroupedProduct

end
-- ==== Proof.KIValue.lean ====
/-
  The kernel's result array, entry by entry, at the ideal values.

  Write a grid point t as (g, mi, ni, k) = (t / 64, t / 32 mod 2, t / 16 mod 2, t mod 16). Its x block is rows
  mi·1024 … of group g at contracted coordinates k·256 …, its w block the same contracted coordinates at columns
  ni·2048 …, and its output block rows mi·1024 …, columns ni·2048 … of group g. So after point t the output's
  staging buffer holds, at (r, cc), the partial sum of entry (g, mi·1024 + r, ni·2048 + cc) over the first
  (k + 1)·256 contracted coordinates: at k = 0 the first slice alone, at k ≠ 0 the previous point's partial sum
  (same g, mi, ni; k one less) plus this point's slice. At k = 15 that is the whole entry, and that is what is
  written back; the sixteen-point runs' blocks tile the array, so the array ends at the grouped product of the
  reshaped x and w. The host line after the region reshapes it.
-/
import proofs.«150463_j25769803776599_2_alg».proof.Proof.KIPieces
import proofs.«150463_j25769803776599_2_alg».proof.Proof.Spec
import Idealize.ShloMosaic.Lib.StableHlo.Run

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open Cert.GroupedProduct (term partialSum entry product)

variable (m : (ℓ : Loc nD τ sig) → Buf (Elt Ideal) ℓ) (ρ : Dev nD → PrngReg)

/-- The three windows' block indices at a point, from the point's position in the grid. -/
theorem idx_facts : ∀ t : Fin cfg0.N,
    win0_0.index t (0 : Fin 3) = t.val / 64 ∧ win0_0.index t (1 : Fin 3) = t.val / 32 % 2 ∧ win0_0.index t (2 : Fin 3) = t.val % 16
    ∧ win0_1.index t (0 : Fin 3) = t.val / 64 ∧ win0_1.index t (1 : Fin 3) = t.val % 16 ∧ win0_1.index t (2 : Fin 3) = t.val / 16 % 2
    ∧ win0_2.index t (0 : Fin 3) = t.val / 64 ∧ win0_2.index t (1 : Fin 3) = t.val / 32 % 2 ∧ win0_2.index t (2 : Fin 3) = t.val / 16 % 2 :=
  (by decide +kernel : ∀ t : Fin grid0.N, _)

/-- The x block at a point, at (0, r, j): the reshaped x at (g, mi·1024 + r, k·256 + j). -/
theorem xblk_apply (c : Dev nD) (t : Fin cfg0.N) (r : Fin 1024) (j : Fin 256) (g : Fin 8) (b : Fin 2048) (q : Fin 4096)
    (hg : g.val = t.val / 64) (hb : b.val = t.val / 32 % 2 * 1024 + r.val) (hq : q.val = t.val % 16 * 256 + j.val) :
    (iblk m c 0 t : Vec Ideal S1x1024x256 .f32) (ix3 (0 : Fin 1) r j) = V m c main_v0 (ix3 g b q) := by
  obtain ⟨e0, e1, e2, -⟩ := idx_facts t
  unfold iblk
  rw [View.read_apply]
  show V m c main_v0 _ = V m c main_v0 _
  congr 1
  funext a; apply Fin.ext
  match a with
  | ⟨0, _⟩ => show win0_0.index t (0 : Fin 3) * 1 + 1 * 0 = g.val; omega
  | ⟨1, _⟩ => show win0_0.index t (1 : Fin 3) * 1024 + 1 * r.val = b.val; omega
  | ⟨2, _⟩ => show win0_0.index t (2 : Fin 3) * 256 + 1 * j.val = q.val; omega

/-- The w block at a point, at (0, j, cc): w at (g, k·256 + j, ni·2048 + cc). -/
theorem wblk_apply (c : Dev nD) (t : Fin cfg0.N) (j : Fin 256) (cc : Fin 2048) (g : Fin 8) (q : Fin 4096) (o : Fin 4096)
    (hg : g.val = t.val / 64) (hq : q.val = t.val % 16 * 256 + j.val) (ho : o.val = t.val / 16 % 2 * 2048 + cc.val) :
    (iblk m c 1 t : Vec Ideal S1x256x2048 .f32) (ix3 (0 : Fin 1) j cc) = V m c main_arg1 (ix3 g q o) := by
  obtain ⟨-, -, -, e0, e1, e2, -⟩ := idx_facts t
  unfold iblk
  rw [View.read_apply]
  show V m c main_arg1 _ = V m c main_arg1 _
  congr 1
  funext a; apply Fin.ext
  match a with
  | ⟨0, _⟩ => show win0_1.index t (0 : Fin 3) * 1 + 1 * 0 = g.val; omega
  | ⟨1, _⟩ => show win0_1.index t (1 : Fin 3) * 256 + 1 * j.val = q.val; omega
  | ⟨2, _⟩ => show win0_1.index t (2 : Fin 3) * 2048 + 1 * cc.val = o.val; omega

/-- The product of the point's two blocks at (r, cc) is the point's slice of the entry's terms. -/
theorem slice_sum (c : Dev nD) (t : Fin cfg0.N) (r : Fin 1024) (cc : Fin 2048) (g : Fin 8) (b : Fin 2048) (o : Fin 4096)
    (hg : g.val = t.val / 64) (hb : b.val = t.val / 32 % 2 * 1024 + r.val) (ho : o.val = t.val / 16 % 2 * 2048 + cc.val)
    (x0 : Vec Ideal S1x1024x256 .f32) (x1 : Vec Ideal S1x256x2048 .f32) (h0 : x0 = iblk m c 0 t) (h1 : x1 = iblk m c 1 t) :
    ∑ j : Fin 256, x0 (ix3 (0 : Fin 1) r j) * x1 (ix3 (0 : Fin 1) j cc)
      = ∑ j : Fin 256, term (V m c main_v0) (V m c main_arg1) g b o (t.val % 16 * 256 + j.val) := by
  subst h0 h1
  refine Finset.sum_congr rfl fun j _ => ?_
  have hq : t.val % 16 * 256 + j.val < 4096 := by have := j.isLt; omega
  unfold Cert.GroupedProduct.term
  rw [dif_pos hq]
  exact congrArg₂ (· * ·) (xblk_apply m c t r j g b ⟨_, hq⟩ hg hb rfl) (wblk_apply m c t j cc g ⟨_, hq⟩ o hg rfl ho)

/-- At a point with k = 0 the buffer holds the first slice's partial sum. -/
theorem reset_val (c : Dev nD) (t : Fin cfg0.N) (h0 : t.val % 16 = 0) (r : Fin 1024) (cc : Fin 2048) (g : Fin 8) (b : Fin 2048) (o : Fin 4096)
    (hg : g.val = t.val / 64) (hb : b.val = t.val / 32 % 2 * 1024 + r.val) (ho : o.val = t.val / 16 % 2 * 2048 + cc.val) :
    outsAt m c t.val t.isLt (ix3 (0 : Fin 1) r cc) = partialSum (V m c main_v0) (V m c main_arg1) g b o 256 := by
  refine (congrFun ((outsAt_reset m c t h0).trans (outReset_eq c (grid0.coords t) (ms0 t) (hs0 t) (ms1 t) (hs1 t) (ms2 t) (hs2 t)
    ((cond1_iff t).mpr h0) (fun h => (cond2_iff t).mp h h0) (iblk m c 0 t) (iblk m c 1 t))) (ix3 (0 : Fin 1) r cc)).trans ?_
  refine (pay2_apply (iblk m c 0 t) (iblk m c 1 t) 0 r cc).trans ?_
  refine (slice_sum m c t r cc g b o hg hb ho (iblk m c 0 t) (iblk m c 1 t) rfl rfl).trans ?_
  rw [h0, Nat.zero_mul]
  exact Cert.GroupedProduct.partialSum_first _ _ g b o

/-- At a point with k ≠ 0 the buffer holds the partial sum it found plus the point's slice. -/
theorem acc_val (c : Dev nD) (t : Fin cfg0.N) (h0 : ¬ t.val % 16 = 0) (r : Fin 1024) (cc : Fin 2048) (g : Fin 8) (b : Fin 2048) (o : Fin 4096)
    (hg : g.val = t.val / 64) (hb : b.val = t.val / 32 % 2 * 1024 + r.val) (ho : o.val = t.val / 16 % 2 * 2048 + cc.val)
    (ih : outsAt m c (t.val - 1) (Nat.lt_of_le_of_lt (Nat.sub_le _ _) t.isLt) (ix3 (0 : Fin 1) r cc)
      = partialSum (V m c main_v0) (V m c main_arg1) g b o (t.val % 16 * 256)) :
    outsAt m c t.val t.isLt (ix3 (0 : Fin 1) r cc) = partialSum (V m c main_v0) (V m c main_arg1) g b o (t.val % 16 * 256 + 256) := by
  refine (congrFun ((outsAt_acc m c t h0).trans (outAcc_eq c (grid0.coords t) (ms0 t) (hs0 t) (ms1 t) (hs1 t) (ms2 t) (hs2 t)
    (fun h => h0 ((cond1_iff t).mp h)) ((cond2_iff t).mpr h0) (iblk m c 0 t) (iblk m c 1 t)
    (outsAt m c (t.val - 1) (Nat.lt_of_le_of_lt (Nat.sub_le _ _) t.isLt)))) (ix3 (0 : Fin 1) r cc)).trans ?_
  refine (pay3_apply (iblk m c 0 t) (iblk m c 1 t) _ 0 r cc).trans ?_
  rw [ih, slice_sum m c t r cc g b o hg hb ho (iblk m c 0 t) (iblk m c 1 t) rfl rfl]
  exact Cert.GroupedProduct.partialSum_add _ _ g b o _

/-- After point n the output's buffer holds, at (r, cc), the partial sum over the first (k + 1)·256 coordinates. -/
theorem outsAt_val (c : Dev nD) : ∀ (n : ℕ) (hn : n < cfg0.N) (r : Fin 1024) (cc : Fin 2048) (g : Fin 8) (b : Fin 2048) (o : Fin 4096),
    g.val = n / 64 → b.val = n / 32 % 2 * 1024 + r.val → o.val = n / 16 % 2 * 2048 + cc.val →
    outsAt m c n hn (ix3 (0 : Fin 1) r cc) = partialSum (V m c main_v0) (V m c main_arg1) g b o (n % 16 * 256 + 256) := by
  intro n
  induction n with
  | zero =>
    intro hn r cc g b o hg hb ho
    exact reset_val m c ⟨0, hn⟩ rfl r cc g b o hg hb ho
  | succ n ih =>
    intro hn r cc g b o hg hb ho
    by_cases h0 : (n + 1) % 16 = 0
    · refine (reset_val m c ⟨n + 1, hn⟩ h0 r cc g b o hg hb ho).trans ?_
      rw [h0, Nat.zero_mul, Nat.zero_add]
    · refine acc_val m c ⟨n + 1, hn⟩ h0 r cc g b o hg hb ho ?_
      have e := ih (Nat.lt_of_succ_lt hn) r cc g b o (by omega) (by omega) (by omega)
      have hk : (n + 1) % 16 * 256 = n % 16 * 256 + 256 := by omega
      show outsAt m c n _ (ix3 (0 : Fin 1) r cc) = partialSum (V m c main_v0) (V m c main_arg1) g b o ((n + 1) % 16 * 256)
      rw [hk]
      exact e

/-! ## From the blocks to the array -/

/-- What a point with k = 15 writes back is its block of the grouped product. -/
theorem flushed_at (c : Dev nD) (t : Fin cfg0.N) (h15 : t.val % 16 = 15) (r : Fin 1024) (cc : Fin 2048) :
    outsAt m c t.val t.isLt (ix3 (0 : Fin 1) r cc)
      = entry (V m c main_v0) (V m c main_arg1) ⟨t.val / 64, by have := lt_of_lt_of_eq t.isLt (show cfg0.N = 512 from N_0); omega⟩
          ⟨t.val / 32 % 2 * 1024 + r.val, by have := r.isLt; omega⟩ ⟨t.val / 16 % 2 * 2048 + cc.val, by have := cc.isLt; omega⟩ := by
  have hN : t.val < 512 := lt_of_lt_of_eq t.isLt (show cfg0.N = 512 from N_0)
  have hr : r.val < 1024 := r.isLt
  have hcc : cc.val < 2048 := cc.isLt
  refine (outsAt_val m c t.val t.isLt r cc ⟨t.val / 64, by omega⟩ ⟨t.val / 32 % 2 * 1024 + r.val, by omega⟩
    ⟨t.val / 16 % 2 * 2048 + cc.val, by omega⟩ rfl rfl rfl).trans ?_
  rw [h15]
  exact Cert.GroupedProduct.partialSum_full _ _ _ _ _

/-- What a point with k = 15 writes back is its block of the grouped product. -/
theorem flushed_eq (c : Dev nD) (t : Fin cfg0.N) (hf : (cfg0.win 2).flush t = true) :
    (dats m 0 c).flushed 2 t = ((cfg0.win 2).blk t).view.read (Elt Ideal) (product (V m c main_v0) (V m c main_arg1)) := by
  have h15 : t.val % 16 = 15 := (flush0_2 t).mp hf
  have hN : t.val < 512 := lt_of_lt_of_eq t.isLt (show cfg0.N = 512 from N_0)
  obtain ⟨-, -, -, -, -, -, e0, e1, e2⟩ := idx_facts t
  show (cfg0.win 2).cut (grid0.coords t) ((dats m 0 c).after 2 t) = _
  rw [after_2]
  refine funext fun (y : S1x1024x2048.Idx) => ?_
  obtain ⟨u, r, cc, rfl⟩ : ∃ (u : Fin 1) (r : Fin 1024) (cc : Fin 2048), y = ix3 u r cc := ⟨y 0, y 1, y 2, eq_ix3 y⟩
  obtain rfl : u = 0 := Subsingleton.elim _ _
  show outsAt m c t.val t.isLt (ix3 (0 : Fin 1) r cc) = product (V m c main_v0) (V m c main_arg1) (((cfg0.win 2).blk t).view.emb (ix3 (0 : Fin 1) r cc))
  refine (flushed_at m c t h15 r cc).trans ?_
  unfold Cert.GroupedProduct.product
  refine congr (congr (congrArg _ ?_) ?_) ?_
  · apply Fin.ext
    show t.val / 64 = win0_2.index t (0 : Fin 3) * 1 + 1 * 0
    omega
  · apply Fin.ext
    show t.val / 32 % 2 * 1024 + r.val = win0_2.index t (1 : Fin 3) * 1024 + 1 * r.val
    omega
  · apply Fin.ext
    show t.val / 16 % 2 * 2048 + cc.val = win0_2.index t (2 : Fin 3) * 2048 + 1 * cc.val
    omega

/-- An entry of the array is in a point's output block iff each coordinate is in the block's range. -/
theorem mem_blk (t : Fin cfg0.N) (i : S8x2048x4096.Idx) :
    i ∈ ((cfg0.win 2).blk t).view.set ↔ ∀ a : Fin 3, win0_2.index t a * S1x1024x2048.size a ≤ (i a).val
      ∧ (i a).val < win0_2.index t a * S1x1024x2048.size a + S1x1024x2048.size a := by
  show i ∈ ((View.whole main_v1).slice (win0_2.rect t)).set ↔ _
  rw [View.set_slice_whole, Rect.mem_set_unit]
  exact Iff.rfl

/-- Every entry is in the block some point with k = 15 writes back. -/
theorem cover (i : S8x2048x4096.Idx) : ∃ t : Fin cfg0.N, (cfg0.win 2).flush t = true ∧ i ∈ ((cfg0.win 2).blk t).view.set := by
  have h0 : (i 0).val < 8 := (i 0).isLt
  have h1 : (i 1).val < 2048 := (i 1).isLt
  have h2 : (i 2).val < 4096 := (i 2).isLt
  have hN : cfg0.N = 512 := N_0
  refine ⟨⟨(((i 0).val * 2 + (i 1).val / 1024) * 2 + (i 2).val / 2048) * 16 + 15, by rw [hN]; omega⟩, ?_, ?_⟩
  · exact (flush0_2 _).mpr (by dsimp only; omega)
  · obtain ⟨-, -, -, -, -, -, e0, e1, e2⟩ := idx_facts ⟨(((i 0).val * 2 + (i 1).val / 1024) * 2 + (i 2).val / 2048) * 16 + 15, by rw [hN]; omega⟩
    dsimp only at e0 e1 e2
    rw [mem_blk]
    intro a
    match a with
    | ⟨0, _⟩ =>
      show win0_2.index _ (0 : Fin 3) * 1 ≤ (i 0).val ∧ (i 0).val < win0_2.index _ (0 : Fin 3) * 1 + 1
      omega
    | ⟨1, _⟩ =>
      show win0_2.index _ (1 : Fin 3) * 1024 ≤ (i 1).val ∧ (i 1).val < win0_2.index _ (1 : Fin 3) * 1024 + 1024
      omega
    | ⟨2, _⟩ =>
      show win0_2.index _ (2 : Fin 3) * 2048 ≤ (i 2).val ∧ (i 2).val < win0_2.index _ (2 : Fin 3) * 2048 + 2048
      omega

/-- The region's result array ends at the grouped product of the arrays the region found. -/
theorem final_v1 (c : Dev nD) : (dats m 0 c).arrAt 2 cfg0.N = product (V m c main_v0) (V m c main_arg1) :=
  (dats m 0 c).arrAt_eq_of_cover 2 (product (V m c main_v0) (V m c main_arg1)) (flushed_eq m c) cover

/-! ## The host lines around the region -/

/-- The region finds the reshaped x. -/
theorem V_main_v0 (c : Dev nD) :
    (V m c main_v0 : Vec Ideal S8x2048x4096 .f32)
      = shapeCast S8x2048x4096 (m ((c : Thread nD τ).loc main_arg0)) Facts₀.shapeCasts_S16384x4096_S8x2048x4096 := by
  show StableHlo.after hostOps0 (fun b => m (c, b)) (Proc.devRef .tc main_v0) = _
  after_results
  rfl

/-- The program's result as a function of the argument arrays. -/
def result (c : Dev nD) : Vec Ideal S16384x4096 .f32 :=
  shapeCast S16384x4096
    (product (shapeCast S8x2048x4096 (m ((c : Thread nD τ).loc main_arg0)) Facts₀.shapeCasts_S16384x4096_S8x2048x4096)
      (m ((c : Thread nD τ).loc main_arg1)))
    Facts₀.shapeCasts_S8x2048x4096_S16384x4096

/-- The line after the region reshapes the region's result array. -/
theorem tail_v2 (c : Dev nD) :
    Pipeline.afterTail₀ cfgs (dats m) 0 (V0 m) [hostOps1] c main_v2 = result m c := by
  unfold Pipeline.afterTail₀
  show StableHlo.after hostOps1 _ (Proc.devRef .tc main_v2) = _
  after_results
  unfold result
  rw [← V_main_v0 m c, ← V_main_arg1 m c, ← final_v1 m c]
  exact congrArg (fun z => shapeCast S16384x4096 z Facts₀.shapeCasts_S8x2048x4096_S16384x4096)
    (Pipeline.withArrays_arr spec0 launch0.win.arr_inj c _ _ 2)

/-- The run, read: the result at the reshaped grouped product, the arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_v2 m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c)))⟩)
    (run_main m ρ)

end Cert.KernelIdeal.Body

end
-- ==== Proof.RefSide.lean ====
/-
  The reference's result, entry by entry, at the ideal values.

  The reference reshapes x to [8, 2048, 4096], takes the batched dot product with w over the contracted axis, and
  reshapes back. At the ideal values the batched dot product at (g, b, o) is Σ_q x(g, b, q) · w(g, q, o): the
  grouped product of the specification, term by term (the two index functions of the generated read lemma are
  (g, b, q) and (g, q, o)).
-/
import proofs.«150463_j25769803776599_2_alg».proof.Defs
import proofs.«150463_j25769803776599_2_alg».proof.Proof.Gen.ReferenceIdeal.Read
import proofs.«150463_j25769803776599_2_alg».proof.Proof.Spec

noncomputable section

namespace Cert.ReferenceIdeal.RefValue

open Idealize.ShloMosaic Idealize.ShloMosaic.ValueIdx
open Cert.ReferenceIdeal Cert.ReferenceIdeal.Read
open Cert.GroupedProduct (product entry)

/-- The batched dot product of the reshaped x with w is the grouped product. -/
theorem dot_eq_product (x0 : (⟨S16384x4096, .f32⟩ : BufTy).Contents (Elt Ideal)) (x1 : (⟨S8x4096x4096, .f32⟩ : BufTy).Contents (Elt Ideal)) :
    val_main_v1 (F := Ideal) x0 x1 = product (val_main_v0 (F := Ideal) x0) x1 := by
  funext i
  refine (val_main_v1_apply x0 x1 i).trans ?_
  unfold Cert.GroupedProduct.product Cert.GroupedProduct.entry
  refine Finset.sum_congr rfl fun k _ => ?_
  refine congrArg₂ (· * ·) (congrArg _ ?_) (congrArg _ ?_)
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl

/-- The reference's last stage is the reshaped grouped product of the reshaped x and w. -/
theorem result_eq (x0 : (⟨S16384x4096, .f32⟩ : BufTy).Contents (Elt Ideal)) (x1 : (⟨S8x4096x4096, .f32⟩ : BufTy).Contents (Elt Ideal)) :
    val_main_v2 (F := Ideal) x0 x1
      = shapeCast S16384x4096 (product (shapeCast S8x2048x4096 x0 Facts₀.shapeCasts_S16384x4096_S8x2048x4096) x1)
          Facts₀.shapeCasts_S8x2048x4096_S16384x4096 :=
  congrArg (fun z => shapeCast S16384x4096 z Facts₀.shapeCasts_S8x2048x4096_S16384x4096) (dot_eq_product x0 x1)

end Cert.ReferenceIdeal.RefValue

end
-- ==== Proof.lean ====
/-
  The claim: a grouped matrix product computed tile by tile equals the batched einsum.

  The kernel splits x [16384, 4096] into 8 groups of 2048 rows, and for each group, each tile of 1024 rows and
  each tile of 2048 columns accumulates, over sixteen slices of 256 contracted coordinates, the product of the
  group's x tile with the group's w tile: the first slice's product is stored, each later slice's product is
  added to what the output tile holds. The reference reshapes x the same way and takes one batched dot product
  over all 4096 contracted coordinates. Over the extended reals, where a change of storage format is the identity
  and every product and sum is exact, both give at (g, b, o) the sum of x(g, b, q) · w(g, q, o) over q: the
  kernel's sixteen partial sums are that sum cut into consecutive slices, and addition of extended reals is
  commutative and associative whether or not an entry is finite, so the precondition is not used.

  The frames: each kernel program runs to the end at every grid point (one of the two branches is taken at each
  point, k = 0 or k ≠ 0), faults nowhere, and leaves x and w as launched; the reference has no kernel and its
  frame is its run with the result dropped. The idealization rewrote nothing, so that conjunct is trivial.
-/
import proofs.«150463_j25769803776599_2_alg».proof.Defs
import proofs.«150463_j25769803776599_2_alg».proof.Proof.Gen.Kernel
import proofs.«150463_j25769803776599_2_alg».proof.Proof.Gen.KernelIdeal
import proofs.«150463_j25769803776599_2_alg».proof.Proof.Gen.ReferenceIdeal
import proofs.«150463_j25769803776599_2_alg».proof.Proof.Gen.Pre_finite_inputs
import proofs.«150463_j25769803776599_2_alg».proof.Proof.Gen.ReferenceIdeal.Run
import proofs.«150463_j25769803776599_2_alg».proof.Proof.KFrame
import proofs.«150463_j25769803776599_2_alg».proof.Proof.KIFrame
import proofs.«150463_j25769803776599_2_alg».proof.Proof.KIValue
import proofs.«150463_j25769803776599_2_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Body.frame (F := Bits) m ρ

theorem frame_ki : Cert.frame_KernelIdeal := fun m ρ _ => Cert.KernelIdeal.Body.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reshaped grouped product of the reshaped x and w. -/
theorem algebraic : Cert.algebraic_KernelIdeal_ReferenceIdeal := by
  intro m ρ m' ρ' _ hagree
  refine ⟨fun c => Cert.KernelIdeal.Body.result m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v2_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
